-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S64x262144 : Shape := ⟨2, ![64, 262144]⟩
abbrev S64x64 : Shape := ⟨2, ![64, 64]⟩
abbrev S8x2048 : Shape := ⟨2, ![8, 2048]⟩
abbrev S8x64 : Shape := ⟨2, ![8, 64]⟩
abbrev S8x128 : Shape := ⟨2, ![8, 128]⟩
abbrev S1x1x128 : Shape := ⟨3, ![1, 1, 128]⟩
abbrev S8x2048x1 : Shape := ⟨3, ![8, 2048, 1]⟩
abbrev S8x2048x128 : Shape := ⟨3, ![8, 2048, 128]⟩
abbrev S_ : Shape := ⟨0, ![]⟩
abbrev S64 : Shape := ⟨1, ![64]⟩
abbrev S64x1 : Shape := ⟨2, ![64, 1]⟩

abbrev nBuf : Space → Nat
  | .hbm => 28
  | .vmem => 7
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S64x64, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64, .f32⟩
  | .hbm, ⟨15, _⟩ => ⟨S64x1, .f32⟩
  | .hbm, ⟨16, _⟩ => ⟨S64x1, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x64, .f32⟩
  | .local _ .vmem, ⟨5, _⟩ => ⟨S8x64, .f32⟩
  | .local _ .vmem, ⟨6, _⟩ => ⟨S8x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 128], ![false, false]⟩

def k0_cond2 (i : grid0.Coords) : BitVec 1 :=
  let arg1 : BitVec 32 := BitVec.ofNat 32 (i 1).val
  let c127_i32 : BitVec 32 := 127#32
  let v36 : BitVec 1 := Scalar.cmpi .eq arg1 c127_i32
  let v37 : BitVec 32 := Scalar.extui v36
  let c0_i32_12 : BitVec 32 := 0#32
  let v38 : BitVec 1 := Scalar.cmpi .ne v37 c0_i32_12
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x1x512x512_S64x262144 : S64x1x512x512.ShapeCasts S64x262144
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  iota_S1x1x128_d2_w32 : S1x1x128.Iotas .tc 32 [2]
  shapeCasts_S8x2048_S8x2048x1 : S8x2048.ShapeCasts S8x2048x1
  broadcasts_S8x2048x1_S8x2048x128 : S8x2048x1.Broadcasts S8x2048x128
  broadcasts_S1x1x128_S8x2048x128 : S1x1x128.Broadcasts S8x2048x128
  natLt_1_32 : 1 < 32
  reduces_S8x2048x128_S8x128 : S8x2048x128.Reduces [1] S8x128
  inb_S8x128_S8x64_0_0 : ∀ a, (![0, 0] : Fin 2 → Nat) a + S8x64.size a ≤ S8x128.size a
  h_S8x64 : 0 < S8x64.numel
  inb_S8x64_S8x64_0_0 : ∀ a, (![0, 0] : Fin 2 → Nat) a + S8x64.size a ≤ S8x64.size a
  reducesTo_S64x64_S64_d1 : S64x64.ReducesTo [1] S64
  h_S_ : 0 < S_.numel
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  reducesTo_S64_S_d0 : S64.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S64x262144.size a
  hwx0_0 : ∀ i : grid0.Coords, EltTy.bits .f32 = 32 ∨ (Rect.block (s := S64x262144) S8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S64x262144.size a
  hwx0_1 : ∀ i : grid0.Coords, EltTy.bits .f32 = 32 ∨ (Rect.block (s := S64x262144) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S64x64.size a
  hwx0_2 : ∀ i : grid0.Coords, EltTy.bits .f32 = 32 ∨ (Rect.block (s := S64x64) S8x64.size (cc0_transform_2 i) (hinb0_2 i)).WholeWords (EltTy.packing .f32)

variable [Facts₀]

abbrev win0_0 : Pipeline.Window sig grid0 :=
  Pipeline.Window.ofSpec (Memref.whole main_v0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S64x262144 : Shape := ⟨2, ![64, 262144]⟩
abbrev S_ : Shape := ⟨0, ![]⟩
abbrev S64 : Shape := ⟨1, ![64]⟩
abbrev S64x1 : Shape := ⟨2, ![64, 1]⟩
abbrev S16777216 : Shape := ⟨1, ![16777216]⟩
abbrev S4096 : Shape := ⟨1, ![4096]⟩
abbrev S16777216x1 : Shape := ⟨2, ![16777216, 1]⟩
abbrev S64x64 : Shape := ⟨2, ![64, 64]⟩

abbrev nBuf : Space → Nat
  | .hbm => 68
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S_, .f32⟩
  | .hbm, ⟨5, _⟩ => ⟨S64x262144, .f32⟩
  | .hbm, ⟨6, _⟩ => ⟨S64x262144, .f32⟩
  | .hbm, ⟨7, _⟩ => ⟨S64x262144, .f32⟩
  | .hbm, ⟨8, _⟩ => ⟨S_, .f32⟩
  | .hbm, ⟨9, _⟩ => ⟨S64x262144, .f32⟩
  | .hbm, ⟨10, _⟩ => ⟨S64x262144, .i1⟩
  | .hbm, ⟨11, _⟩ => ⟨S_, .f32⟩
  | .hbm, ⟨12, _⟩ => ⟨S64x262144, .f32⟩
  | .hbm, ⟨13, _⟩ => ⟨S64x262144, .i1⟩
  | .hbm, ⟨14, _⟩ => ⟨S64x262144, .i1⟩
  | .hbm, ⟨15, _⟩ => ⟨S64x262144, .f32⟩
  | .hbm, ⟨16, _⟩ => ⟨S64x262144, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S64x262144, .i32⟩
  | .hbm, ⟨21, _⟩ => ⟨S64x262144, .i32⟩
  | .hbm, ⟨22, _⟩ => ⟨S_, .i32⟩
  | .hbm, ⟨23, _⟩ => ⟨S64x262144, .i32⟩
  | .hbm, ⟨24, _⟩ => ⟨S64x262144, .i32⟩
  | .hbm, ⟨25, _⟩ => ⟨S64, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S64x262144, .i32⟩
  | .hbm, ⟨31, _⟩ => ⟨S64x262144, .i32⟩
  | .hbm, ⟨32, _⟩ => ⟨S16777216, .i32⟩
  | .hbm, ⟨33, _⟩ => ⟨S_, .f32⟩
  | .hbm, ⟨34, _⟩ => ⟨S_, .f32⟩
  | .hbm, ⟨35, _⟩ => ⟨S64x262144, .f32⟩
  | .hbm, ⟨36, _⟩ => ⟨S64x262144, .f32⟩
  | .hbm, ⟨37, _⟩ => ⟨S64x262144, .f32⟩
  | .hbm, ⟨38, _⟩ => ⟨S16777216, .f32⟩
  | .hbm, ⟨39, _⟩ => ⟨S16777216, .f32⟩
  | .hbm, ⟨40, _⟩ => ⟨S_, .f32⟩
  | .hbm, ⟨41, _⟩ => ⟨S4096, .f32⟩
  | .hbm, ⟨42, _⟩ => ⟨S16777216x1, .i32⟩
  | .hbm, ⟨43, _⟩ => ⟨S4096, .f32⟩
  | .hbm, ⟨44, _⟩ => ⟨S64x64, .f32⟩
  | .hbm, ⟨45, _⟩ => ⟨S_, .f32⟩
  | .hbm, ⟨46, _⟩ => ⟨S64, .f32⟩
  | .hbm, ⟨47, _⟩ => ⟨S64x1, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S_, .f32⟩
  | .hbm, ⟨54, _⟩ => ⟨S64, .f32⟩
  | .hbm, ⟨55, _⟩ => ⟨S64x1, .f32⟩
  | .hbm, ⟨56, _⟩ => ⟨S64x1, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S_, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  shapeCasts_S64x1x512x512_S64x262144 : S64x1x512x512.ShapeCasts S64x262144
  bcast_S_S64x262144 : S_.BroadcastsInDim S64x262144 (![] : Fin 0 → Fin S64x262144.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x262144_0_1 : S64x1.BroadcastsInDim S64x262144 (![0, 1] : Fin 2 → Fin S64x262144.rank)
  shapeCasts_S64x262144_S16777216 : S64x262144.ShapeCasts S16777216
  bcast_S_S4096 : S_.BroadcastsInDim S4096 (![] : Fin 0 → Fin S4096.rank)
  bcast_S16777216_S16777216x1_0 : S16777216.BroadcastsInDim S16777216x1 (![0] : Fin 1 → Fin S16777216x1.rank)
  shapeCasts_S4096_S64x64 : S4096.ShapeCasts S64x64
  reducesTo_S64x64_S64_d1 : S64x64.ReducesTo [1] S64
  h_S_ : 0 < S_.numel
  bcast_S64x1_S64x64_0_1 : S64x1.BroadcastsInDim S64x64 (![0, 1] : Fin 2 → Fin S64x64.rank)
  bcast_S_S64x64 : S_.BroadcastsInDim S64x64 (![] : Fin 0 → Fin S64x64.rank)
  reducesTo_S64_S_d0 : S64.ReducesTo [0] S_
  scatter_S4096_S16777216x1_S16777216_n_0_0_1_wf : ScatterDims.WF S4096 S16777216x1 S16777216 [] [0] [0] 1

variable [Facts₀]

def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

class Facts : Prop extends Facts₀ where

variable [Facts]
-- ==== Proof.KernelPieces.lean ====
/-
  What one grid point of the kernel leaves behind, as values. The kernel keeps a running 8 × 128 block of counts in a
  buffer it carries from point to point along a row of the grid: the first point of the row overwrites it with zeros,
  every point adds to it the counts of its own 8 × 2048 block of samples, and the last point copies its first 64
  lanes into the output block. Each lemma reads the stores the body's run found back as one value.
-/
import proofs.«172586_j48954037239853_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

open Idealize.ShloMosaic.ValueIdx

/-- The zero block the first point of a row of the grid stores. -/
abbrev zeros : Vec F S8x128 .f32 := k0_pay1 (F := F)

/-- A point that is neither first nor last in its row of the grid leaves, in the carried buffer holding `acc`, the
    block's update of `acc`: the one covering store's value over the whole buffers the loads read. -/
theorem scratch_B (c : Dev nD) (i : grid0.Coords) (a2 : Memref sig .tc .vmem S8x2048 .f32) (h2 : a2.IsWhole)
    (a3 : Memref sig .tc .vmem S8x2048 .f32) (h3 : a3.IsWhole) (a4 : Memref sig .tc .vmem S8x64 .f32) (h4 : a4.IsWhole)
    (a5 : Memref sig .tc .vmem S8x128 .f32) (h5 : a5.IsWhole) (hc0 : ¬cond0_0 i) (hc1 : ¬cond0_1 i)
    (x0 x1 : Vec F S8x2048 .f32) (xs0 : Vec F S8x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S8x2048) hz,
    View.ld_unit_zero (S := S8x128) hz]

/-- The first point of a row of the grid stores the zero block, reads it back and leaves the block's update of it. -/
theorem scratch_A (c : Dev nD) (i : grid0.Coords) (a2 : Memref sig .tc .vmem S8x2048 .f32) (h2 : a2.IsWhole)
    (a3 : Memref sig .tc .vmem S8x2048 .f32) (h3 : a3.IsWhole) (a4 : Memref sig .tc .vmem S8x64 .f32) (h4 : a4.IsWhole)
    (a5 : Memref sig .tc .vmem S8x128 .f32) (h5 : a5.IsWhole) (hc0 : cond0_0 i) (hc1 : ¬cond0_1 i)
    (x0 x1 : Vec F S8x2048 .f32) :
    sout0_A_0 c i a2 h2 a3 h3 a4 h4 a5 h5 hc0 hc1 x0 x1 = k0_pay2 x0 x1 (zeros (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S8x2048) hz,
    View.ld_unit_zero (S := S8x128) hz]

/-- The last point of a row of the grid updates the carried buffer in the same way. -/
theorem scratch_C (c : Dev nD) (i : grid0.Coords) (a2 : Memref sig .tc .vmem S8x2048 .f32) (h2 : a2.IsWhole)
    (a3 : Memref sig .tc .vmem S8x2048 .f32) (h3 : a3.IsWhole) (a4 : Memref sig .tc .vmem S8x64 .f32) (h4 : a4.IsWhole)
    (a5 : Memref sig .tc .vmem S8x128 .f32) (h5 : a5.IsWhole) (hc0 : ¬cond0_0 i) (hc1 : cond0_1 i)
    (x0 x1 : Vec F S8x2048 .f32) (xs0 : Vec F S8x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S8x2048) hz,
    View.ld_unit_zero (S := S8x128) hz]

/-- Lane `k < 64` as a lane of the 128-lane carried buffer. -/
abbrev lane (k : Fin 64) : Fin 128 := ⟨k.val, by have := k.isLt; omega⟩

/-- And it stores, into the output block, the first 64 lanes of the carried buffer as just updated. -/
theorem out_C (c : Dev nD) (i : grid0.Coords) (a2 : Memref sig .tc .vmem S8x2048 .f32) (h2 : a2.IsWhole)
    (a3 : Memref sig .tc .vmem S8x2048 .f32) (h3 : a3.IsWhole) (a4 : Memref sig .tc .vmem S8x64 .f32) (h4 : a4.IsWhole)
    (a5 : Memref sig .tc .vmem S8x128 .f32) (h5 : a5.IsWhole) (hc0 : ¬cond0_0 i) (hc1 : cond0_1 i)
    (x0 x1 : Vec F S8x2048 .f32) (xs0 : Vec F S8x128 .f32) :
    out0_C_2 c i a2 h2 a3 h3 a4 h4 a5 h5 hc0 hc1 x0 x1 xs0
      = fun y : S8x64.Idx => k0_pay2 x0 x1 xs0 (ix2 (y 0) (lane (y 1))) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S8x64) hz, View.readCov_eq_canon', View.canon_unit_zero (S := S8x128) hz]
  simp only [View.readAt_eq_ld, h2.read_unread, h3.read_unread, h5.read_unread, View.ld_unit_zero (S := S8x2048) hz,
    View.ld_unit_zero (S := S8x128) hz]
  funext y
  congr 1
  funext a
  apply Fin.ext
  match a with
  | ⟨0, _⟩ => show 0 + 1 * (y 0).val = (y 0).val; omega
  | ⟨1, _⟩ => show 0 + 1 * (y 1).val = (y 1).val; omega

end Cert.KernelIdeal.Pieces

end
-- ==== Proof.HistSpec.lean ====
/-
  The histogram both programs compute, stated once.

  A sample with coordinates x, y has the score v = 64·x + y. It is counted when 0 ≤ v ≤ 64, in the bin
  ⌊v⌋ clipped to [0, 63]. Row b of the histogram counts the 262144 samples of row b of the two arrays: entry
  (b, k) is the number of counted samples of that row whose bin is k, as an extended real.

  The kernel finds that number by comparing each sample's bin (or −1, when the sample is not counted) with every bin
  number and adding up the resulting ones and zeros; the reference adds, to a table of zeros, the weight (one when
  counted, zero otherwise) of every sample at the position 64·b + bin. The lemmas here are the facts about one sample
  that make the two sums equal term by term.
-/
import Idealize.ShloMosaic.Lib.ValueIdx
import Idealize.ShloMosaic.Lib.IdealHost
import Idealize.ShloMosaic.PureOps.Ideal.Laws

noncomputable section

namespace Cert.Hist

open Idealize.ShloMosaic Idealize.ShloMosaic.ValueIdx

/-- The score of a sample: 64·x + y. -/
def score (x y : EReal) : EReal := x * Ideal.ofBits .f32 0x42800000#32 + y

/-- Whether a score is counted: 0 ≤ v and v ≤ 64, as one bit. -/
def counted (v : EReal) : BitVec 1 :=
  IntOp.andi (Ideal.cmp .oge v (Ideal.ofBits .f32 0x00000000#32)) (Ideal.cmp .ole v (Ideal.ofBits .f32 0x42800000#32))

/-- The bin of a score: ⌊v⌋ as a 32-bit integer, clipped to [0, 63]. -/
def bin (v : EReal) : BitVec 32 :=
  IntOp.minsi 63#32 (IntOp.maxsi 0#32 (Ideal.fptosi 32 (Ideal.liftRound Int.floor v)))

/-- The kernel's entry for a sample and a bin number: one when the sample's bin (−1 when it is not counted) is that
    number, zero otherwise — the comparison bit widened to 32 bits and read as a signed integer. -/
def hit (v : EReal) (l : BitVec 32) : EReal :=
  (((((IntOp.cmpi .eq (Scalar.select (counted v) (bin v) 4294967295#32) l).setWidth 32).toInt : ℤ) : ℝ) : EReal)

/-- The reference's weight for a sample: one when it is counted, zero otherwise. -/
def weight (v : EReal) : EReal :=
  Scalar.select (counted v) (Ideal.ofBits .f32 0x3F800000#32) (Ideal.ofBits .f32 0x00000000#32)

/-- The position the reference adds a sample of row `b` at: its bin plus 64·b, in 32-bit arithmetic. -/
def slot (v : EReal) (b : BitVec 32) : BitVec 32 := IntOp.addi (bin v) (IntOp.muli 64#32 b)

/-- A clipped integer lies in [0, 63]. -/
theorem clip_range (z : BitVec 32) :
    0 ≤ (IntOp.minsi 63#32 (IntOp.maxsi 0#32 z)).toInt ∧ (IntOp.minsi 63#32 (IntOp.maxsi 0#32 z)).toInt ≤ 63 := by
  unfold IntOp.minsi IntOp.maxsi
  have h0 : (0#32 : BitVec 32).toInt = 0 := by decide
  have h63 : (63#32 : BitVec 32).toInt = 63 := by decide
  by_cases hz : z.slt 0#32
  · rw [if_pos hz]
    have : (63#32 : BitVec 32).slt 0#32 = false := by decide
    rw [this]; simp only [Bool.false_eq_true, if_false]
    rw [h0]; omega
  · rw [if_neg hz]
    have hz' : ¬ z.toInt < 0 := by rw [BitVec.slt_iff_toInt_lt, h0] at hz; exact hz
    by_cases hc : (63#32 : BitVec 32).slt z
    · rw [if_pos hc, h63]; omega
    · rw [if_neg hc]
      rw [BitVec.slt_iff_toInt_lt, h63] at hc
      omega

theorem bin_range (v : EReal) : 0 ≤ (bin v).toInt ∧ (bin v).toInt ≤ 63 := clip_range _

/-- The bin as a natural number below 64. -/
theorem bin_toNat_lt (v : EReal) : (bin v).toNat < 64 := by
  have h := bin_range v
  have hlt := (bin v).isLt
  rw [BitVec.toInt_eq_toNat_cond] at h
  split at h <;> omega

/-- A comparison bit widened to 32 bits and read as a signed integer is one or zero. -/
theorem bit_toInt (p : Bool) : ((BitVec.ofBool p).setWidth 32).toInt = if p then 1 else 0 := by
  cases p <;> decide

/-- The kernel's entry is one exactly when the sample is counted and its bin is the number asked for. -/
theorem hit_eq (v : EReal) (k : ℕ) (hk : k < 128) :
    hit v (BitVec.ofNat 32 k) = if counted v = 1#1 ∧ (bin v).toNat = k then 1 else 0 := by
  have hb := bin_toNat_lt v
  have hcmp : ∀ a b : BitVec 32, IntOp.cmpi .eq a b = BitVec.ofBool (a == b) := fun _ _ => rfl
  unfold hit
  rw [hcmp, bit_toInt]
  by_cases hc : counted v = 1#1
  · rw [show Scalar.select (counted v) (bin v) 4294967295#32 = bin v from if_pos hc]
    by_cases he : (bin v).toNat = k
    · have hbk : (bin v == BitVec.ofNat 32 k) = true := by
        rw [beq_iff_eq]; apply BitVec.eq_of_toNat_eq; rw [he, BitVec.toNat_ofNat]; omega
      rw [hbk, if_pos rfl, if_pos ⟨hc, he⟩]; norm_num
    · have hbk : (bin v == BitVec.ofNat 32 k) = false := by
        rw [beq_eq_false_iff_ne]; intro h; apply he; rw [h, BitVec.toNat_ofNat]; omega
      rw [hbk, if_neg Bool.false_ne_true, if_neg (fun h => he h.2)]; norm_num
  · rw [show Scalar.select (counted v) (bin v) 4294967295#32 = 4294967295#32 from if_neg hc]
    have hbk : ((4294967295#32 : BitVec 32) == BitVec.ofNat 32 k) = false := by
      rw [beq_eq_false_iff_ne]; intro h
      have := congrArg BitVec.toNat h
      rw [BitVec.toNat_ofNat, BitVec.toNat_ofNat] at this
      omega
    rw [hbk, if_neg Bool.false_ne_true, if_neg (fun h => hc h.1)]; norm_num

/-- The reference's weight is one when the sample is counted and zero when it is not. -/
theorem weight_eq (v : EReal) : weight v = if counted v = 1#1 then 1 else 0 := by
  unfold weight
  rw [Ideal.ofBits_one_f32, Ideal.ofBits_zero_f32]
  rfl

/-- Where a sample of row `b` lands: the integer 64·b + bin, no wrap-around for b < 64. -/
theorem slot_toInt (v : EReal) (b : ℕ) (hb : b < 64) :
    (slot v (BitVec.ofNat 32 b)).toInt = (64 * b + (bin v).toNat : ℤ) := by
  have hlt := bin_toNat_lt v
  unfold slot IntOp.addi IntOp.muli
  rw [BitVec.toInt_eq_toNat_cond, BitVec.toNat_add, BitVec.toNat_mul, BitVec.toNat_ofNat, BitVec.toNat_ofNat]
  have e : ((bin v).toNat + 64 % 2 ^ 32 * (b % 2 ^ 32) % 2 ^ 32) % 2 ^ 32 = 64 * b + (bin v).toNat := by omega
  rw [e]
  split <;> omega

/-- A sample of row `b'` adds its weight at position 64·b + k exactly when `b' = b` and its bin is `k`: what it adds
    there is the kernel's entry for the sample and bin `k`, on its own row, and nothing on any other row. -/
theorem landed_eq (v : EReal) (b' b k : ℕ) (hb' : b' < 64) (hb : b < 64) (hk : k < 64) :
    (if (slot v (BitVec.ofNat 32 b')).toInt = ((b * 64 + k : ℕ) : ℤ) then weight v else 0)
      = if b' = b then hit v (BitVec.ofNat 32 k) else 0 := by
  have hlt := bin_toNat_lt v
  rw [slot_toInt v b' hb', hit_eq v k (by omega), weight_eq]
  by_cases hbb : b' = b
  · subst hbb
    rw [if_pos rfl]
    by_cases he : (bin v).toNat = k
    · rw [if_pos (by rw [he]; push_cast; ring)]
      by_cases hc : counted v = 1#1
      · rw [if_pos hc, if_pos ⟨hc, he⟩]
      · rw [if_neg hc, if_neg (fun h => hc h.1)]
    · rw [if_neg (by intro h; apply he; omega), if_neg (fun h => he h.2)]
  · rw [if_neg hbb, if_neg (by intro h; apply hbb; omega)]

/-- THE HISTOGRAM: entry (b, k) counts the samples of row b of the two 64 × 262144 arrays whose bin is k. -/
def rowHist (X Y : (⟨2, ![64, 262144]⟩ : Shape).Idx → EReal) : (⟨2, ![64, 64]⟩ : Shape).Idx → EReal :=
  fun i => ∑ n : Fin 262144, hit (score (X (ix2 (i 0) n)) (Y (ix2 (i 0) n))) (BitVec.ofNat 32 (i 1).val)

end Cert.Hist

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«172586_j48954037239853_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibLift3.lean ====
/-
  The index a reduction over one axis of a rank-three array inserts, for the middle and the last axis: the kept
  coordinates stay where they are and the reduced coordinate goes back on its axis.
-/
import Idealize.ShloMosaic.Lib.ValueIdx
import Idealize.ShloMosaic.PureOps.Ideal.Laws

namespace Cert.Lift3

open Idealize.ShloMosaic Idealize.ShloMosaic.ValueIdx

/-- Reducing the middle axis away: entry `(p, q)` with coordinate `k` put back is `(p, k, q)`. -/
theorem lift_mid {a b d : ℕ} (h : (⟨3, ![a, b, d]⟩ : Shape).Reduces [1] (⟨2, ![a, d]⟩ : Shape)) (p : Fin a) (q : Fin d)
    (k : Fin ((⟨3, ![a, b, d]⟩ : Shape).size 1)) : h.lift (ix2 p q) k = ix3 p (⟨k.val, k.isLt⟩ : Fin b) q := by
  funext c; apply Fin.ext
  fin_cases c <;> rfl

/-- Reducing the last axis away: entry `(p, q)` with coordinate `k` put back is `(p, q, k)`. -/
theorem lift_last {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

end Cert.Lift3
-- ==== Proof.KernelPayload.lean ====
/-
  The update one grid point applies to the running block of counts, read entry by entry: entry (r, l) of the block
  grows by the number of samples of row r of the point's 8 × 2048 block whose bin is l — each sample contributes the
  one or zero of comparing its bin (−1 when not counted) with l, and the 2048 contributions of the row are summed.
-/
import proofs.«172586_j48954037239853_2_alg».proof.Proof.Gen.KernelIdeal.Skeleton
import proofs.«172586_j48954037239853_2_alg».proof.Proof.HistSpec
import proofs.«172586_j48954037239853_2_alg».proof.Proof.LibLay3
import proofs.«172586_j48954037239853_2_alg».proof.Proof.LibLift3
import Idealize.ShloMosaic.Lib.Pipeline.Value

noncomputable section

namespace Cert.KernelIdeal.Payload

open Cert.KernelIdeal Cert.KernelIdeal.Gen Idealize.ShloMosaic Idealize.ShloMosaic.ValueIdx Cert.Hist

/-- A sample's bin, or −1 when the sample is not counted, for every sample of an 8 × 2048 block. -/
def code (x0 x1 : Vec Ideal S8x2048 .f32) : IVec S8x2048 32 := fun i =>
  Scalar.select (counted (score (x0 i) (x1 i))) (bin (score (x0 i) (x1 i))) 4294967295#32

/-- The one or zero of comparing each sample's code with each of the 128 lane numbers. -/
def onehot (x0 x1 : Vec Ideal S8x2048 .f32) : FVec Ideal S8x2048x128 .f32 :=
  sitofp .f32 (extui 32 (cmpi .eq
    (broadcastTo S8x2048x128 (shapeCast S8x2048x1 (code x0 x1) shapeCasts_S8x2048_S8x2048x1) broadcasts_S8x2048x1_S8x2048x128)
    (broadcastTo S8x2048x128 (iota .tc S1x1x128 32 [2] iota_S1x1x128_d2_w32) broadcasts_S1x1x128_S8x2048x128)) natLt_1_32)

/-- The update as one expression: the carried block plus the sum, over the 2048 samples of each row, of the ones and zeros. -/
theorem pay2_eq (x0 x1 : Vec Ideal S8x2048 .f32) (acc : Vec Ideal S8x128 .f32) :
    k0_pay2 (F := Ideal) x0 x1 acc
      = addf acc (multiReduction .add [1] S8x128 (onehot x0 x1) 0x00000000#32 reduces_S8x2048x128_S8x128 (.inl rfl) rfl) := by
  unfold k0_pay2
  simp only [shapeCast_self]
  rfl

/-- One entry of the ones and zeros: the sample's contribution to lane `l`. -/
theorem onehot_apply (x0 x1 : Vec Ideal S8x2048 .f32) (r : Fin 8) (q : Fin 2048) (l : Fin 128) :
    onehot x0 x1 (ix3 r q l) = hit (score (x0 (ix2 r q)) (x1 (ix2 r q))) (BitVec.ofNat 32 l.val) := by
  unfold onehot
  show FloatOps.sitofp (F := Ideal) .f32 ((IntOp.cmpi .eq
      (broadcastTo S8x2048x128 (shapeCast S8x2048x1 (code x0 x1) shapeCasts_S8x2048_S8x2048x1) broadcasts_S8x2048x1_S8x2048x128 (ix3 r q l))
      (broadcastTo S8x2048x128 (iota .tc S1x1x128 32 [2] iota_S1x1x128_d2_w32) broadcasts_S1x1x128_S8x2048x128 (ix3 r q l))).setWidth 32) = _
  rw [Cert.GQA.Lay.broadcastTo_ab1_abd_apply, Cert.GQA.Lay.shapeCast_ab_ab1_apply, Cert.GQA.Lay.broadcastTo_11d_abd_apply]
  show _ = hit _ _
  unfold hit code
  have hi : iota .tc S1x1x128 32 [2] iota_S1x1x128_d2_w32 (ix3 (0 : Fin 1) (0 : Fin 1) l) = BitVec.ofNat 32 l.val := by
    show BitVec.ofNat 32 (0 * 128 + l.val) = _
    rw [Nat.zero_mul, Nat.zero_add]
  rw [hi]
  rfl

/-- The update at an entry. -/
theorem pay2_apply (x0 x1 : Vec Ideal S8x2048 .f32) (acc : Vec Ideal S8x128 .f32) (r : Fin 8) (l : Fin 128) :
    k0_pay2 (F := Ideal) x0 x1 acc (ix2 r l)
      = acc (ix2 r l) + ∑ q : Fin 2048, hit (score (x0 (ix2 r q)) (x1 (ix2 r q))) (BitVec.ofNat 32 l.val) := by
  rw [pay2_eq]
  show acc (ix2 r l) + _ = _
  refine congrArg (acc (ix2 r l) + ·) ?_
  refine (Ideal.multiReduction_add_single (onehot x0 x1) 0x00000000#32 reduces_S8x2048x128_S8x128 (.inl rfl) rfl (ix2 r l)).trans ?_
  refine Finset.sum_congr rfl fun q _ => ?_
  rw [Cert.Lift3.lift_mid]
  exact onehot_apply x0 x1 r q l

/-- The zero block is zero at every entry. -/
theorem pay1_apply (i : S8x128.Idx) : k0_pay1 (F := Ideal) i = 0 := by
  unfold k0_pay1
  simp only [shapeCast_self]
  show Ideal.ofBits .f32 0x00000000#32 = 0
  exact Ideal.ofBits_zero_f32

end Cert.KernelIdeal.Payload

end
-- ==== Proof.HistPartial.lean ====
/-
  The histogram of a row, built up 2048 samples at a time. Extending a row's samples by zero beyond the arrays, the
  count over the first `cnt` samples is a sum over a range of natural numbers: it starts at zero, grows by a block's
  2048 contributions when the block is appended, and over all 262144 samples is the histogram's entry.
-/
import proofs.«172586_j48954037239853_2_alg».proof.Proof.HistSpec

noncomputable section

namespace Cert.Hist

open Idealize.ShloMosaic Idealize.ShloMosaic.ValueIdx

variable (X Y : (⟨2, ![64, 262144]⟩ : Shape).Idx → EReal)

/-- Sample `col` of row `row`'s contribution to bin `l`; zero outside the arrays. -/
def cell (row col : ℕ) (l : BitVec 32) : EReal :=
  if h : row < 64 ∧ col < 262144 then
    hit (score (X (ix2 (⟨row, h.1⟩ : Fin 64) (⟨col, h.2⟩ : Fin 262144))) (Y (ix2 (⟨row, h.1⟩ : Fin 64) (⟨col, h.2⟩ : Fin 262144)))) l
  else 0

/-- The count of bin `l` over the first `cnt` samples of row `row`. -/
def partialRow (row cnt : ℕ) (l : BitVec 32) : EReal := ∑ c ∈ Finset.range cnt, cell X Y row c l

theorem partialRow_zero (row : ℕ) (l : BitVec 32) : partialRow X Y row 0 l = 0 := by
  unfold partialRow; simp

/-- Appending a block of 2048 samples adds the block's 2048 contributions. -/
theorem partialRow_add_block (row base : ℕ) (l : BitVec 32) (hrow : row < 64) (hb : base + 2048 ≤ 262144)
    (f : Fin 2048 → EReal)
    (hf : ∀ q : Fin 2048, f q = hit (score (X (ix2 (⟨row, hrow⟩ : Fin 64) (⟨base + q.val, by have := q.isLt; omega⟩ : Fin 262144)))
      (Y (ix2 (⟨row, hrow⟩ : Fin 64) (⟨base + q.val, by have := q.isLt; omega⟩ : Fin 262144)))) l) :
    partialRow X Y row base l + ∑ q : Fin 2048, f q = partialRow X Y row (base + 2048) l := by
  unfold partialRow
  rw [Finset.sum_range_add, ← Fin.sum_univ_eq_sum_range (fun x => cell X Y row (base + x) l) 2048]
  refine congrArg (_ + ·) (Finset.sum_congr rfl fun q _ => ?_)
  rw [hf q]
  unfold cell
  rw [dif_pos ⟨hrow, by have := q.isLt; omega⟩]

/-- Over all 262144 samples the count is the histogram's entry. -/
theorem partialRow_full (b : Fin 64) (k : Fin 64) :
    partialRow X Y b.val 262144 (BitVec.ofNat 32 k.val) = rowHist X Y (ix2 b k) := by
  unfold partialRow rowHist
  rw [← Fin.sum_univ_eq_sum_range (fun x => cell X Y b.val x (BitVec.ofNat 32 k.val)) 262144]
  refine Finset.sum_congr rfl fun n _ => ?_
  unfold cell
  rw [dif_pos ⟨b.isLt, n.isLt⟩]

end Cert.Hist

end
-- ==== Proof.KernelAccum.lean ====
/-
  The kernel's histogram. Along a row of the grid (128 points) the carried block of counts grows, 2048 samples at a time,
  into the counts over whole rows of the two arrays: after the point in column j of grid row i, entry (r, l) is the count of
  bin l over the first 2048·(j + 1) samples of array row 8·i + r. The last point of the grid row writes the first 64 lanes
  back as rows 8·i … 8·i + 7 of the output, so the output array ends holding the histogram of the two arrays.
-/
import proofs.«172586_j48954037239853_2_alg».proof.Proof.KernelPieces
import proofs.«172586_j48954037239853_2_alg».proof.Proof.KernelPayload
import proofs.«172586_j48954037239853_2_alg».proof.Proof.HistPartial

set_option maxRecDepth 16384

noncomputable section

namespace Cert.KernelIdeal.Accum

open Idealize.ShloMosaic Idealize.ShloMosaic.TcCoe Idealize.SL.Sem
open Idealize.ShloMosaic.Pipeline (Dat)
open Cert.KernelIdeal Cert.KernelIdeal.Gen Idealize.ShloMosaic.ValueIdx Cert.Hist
open Cert.KernelIdeal.Pieces Cert.KernelIdeal.Payload

variable (m : (ℓ : Loc nD τ sig) → Buf (Elt Ideal) ℓ) (ρ : Dev nD → PrngReg)

/-- The two arrays of samples as the kernel finds them: 64 rows of 262144. -/
abbrev Xk (c : Dev nD) : S64x262144.Idx → EReal := V m c main_v0
abbrev Yk (c : Dev nD) : S64x262144.Idx → EReal := V m c main_v1

/-- Where the blocks of the point at linear position `t` sit: grid row `t / 128`, grid column `t % 128`. -/
theorem idx_facts : ∀ t : Fin cfg0.N, win0_0.index t (0 : Fin 2) = t.val / 128 ∧ win0_0.index t (1 : Fin 2) = t.val % 128
    ∧ win0_1.index t (0 : Fin 2) = t.val / 128 ∧ win0_1.index t (1 : Fin 2) = t.val % 128
    ∧ win0_2.index t (0 : Fin 2) = t.val / 128 ∧ win0_2.index t (1 : Fin 2) = 0 :=
  (by decide +kernel : ∀ t : Fin grid0.N, _)

/-- Entry (r, q) of the point's block of the first array is sample 2048·(t % 128) + q of row 8·(t / 128) + r. -/
theorem iblk0_apply (c : Dev nD) (t : Fin cfg0.N) (r : Fin 8) (q : Fin 2048) (hr : 8 * (t.val / 128) + r.val < 64)
    (hq : 2048 * (t.val % 128) + q.val < 262144) :
    (iblk m c 0 t : Vec Ideal S8x2048 .f32) (ix2 r q)
      = Xk m c (ix2 (⟨8 * (t.val / 128) + r.val, hr⟩ : Fin 64) (⟨2048 * (t.val % 128) + q.val, hq⟩ : Fin 262144)) := by
  obtain ⟨e0, e1, -⟩ := idx_facts t
  unfold iblk
  rw [View.read_apply]
  show V m c main_v0 _ = V m c main_v0 _
  refine congrArg (V m c main_v0) ?_
  funext a
  apply Fin.ext
  match a with
  | ⟨0, _⟩ => show win0_0.index t 0 * 8 + 1 * r.val = 8 * (t.val / 128) + r.val; rw [e0]; omega
  | ⟨1, _⟩ => show win0_0.index t 1 * 2048 + 1 * q.val = 2048 * (t.val % 128) + q.val; rw [e1]; omega

/-- The same for the second array. -/
theorem iblk1_apply (c : Dev nD) (t : Fin cfg0.N) (r : Fin 8) (q : Fin 2048) (hr : 8 * (t.val / 128) + r.val < 64)
    (hq : 2048 * (t.val % 128) + q.val < 262144) :
    (iblk m c 1 t : Vec Ideal S8x2048 .f32) (ix2 r q)
      = Yk m c (ix2 (⟨8 * (t.val / 128) + r.val, hr⟩ : Fin 64) (⟨2048 * (t.val % 128) + q.val, hq⟩ : Fin 262144)) := by
  obtain ⟨-, -, e0, e1, -⟩ := idx_facts t
  unfold iblk
  rw [View.read_apply]
  show V m c main_v1 _ = V m c main_v1 _
  refine congrArg (V m c main_v1) ?_
  funext a
  apply Fin.ext
  match a with
  | ⟨0, _⟩ => show win0_1.index t 0 * 8 + 1 * r.val = 8 * (t.val / 128) + r.val; rw [e0]; omega
  | ⟨1, _⟩ => show win0_1.index t 1 * 2048 + 1 * q.val = 2048 * (t.val % 128) + q.val; rw [e1]; omega

/-- ONE POINT'S STEP: a carried block that holds the counts over the samples before the point's block holds, after the
    point's update, the counts over the samples up to the end of the block. -/
theorem step (c : Dev nD) (t : Fin cfg0.N) (acc : Vec Ideal S8x128 .f32) (r : Fin 8) (l : Fin 128)
    (hacc : acc (ix2 r l)
      = partialRow (Xk m c) (Yk m c) (8 * (t.val / 128) + r.val) (2048 * (t.val % 128)) (BitVec.ofNat 32 l.val)) :
    k0_pay2 (F := Ideal) (iblk m c 0 t) (iblk m c 1 t) acc (ix2 r l)
      = partialRow (Xk m c) (Yk m c) (8 * (t.val / 128) + r.val) (2048 * (t.val % 128) + 2048) (BitVec.ofNat 32 l.val) := by
  have hN : t.val < 1024 := lt_of_lt_of_eq t.isLt (show cfg0.N = 1024 from N_0)
  have hrow : 8 * (t.val / 128) + r.val < 64 := by have := r.isLt; omega
  rw [pay2_apply (iblk m c 0 t) (iblk m c 1 t) acc r l, hacc]
  refine partialRow_add_block (Xk m c) (Yk m c) _ _ _ hrow (by omega) _ fun q => ?_
  rw [iblk0_apply m c t r q hrow (by have := q.isLt; omega), iblk1_apply m c t r q hrow (by have := q.isLt; omega)]

/-- THE RUNNING COUNTS: what the carried block holds after the point at position `n`. -/
theorem scratch_eq (c : Dev nD) (n : ℕ) : ∀ (h : n < cfg0.N) (r : Fin 8) (l : Fin 128),
    (outsAt0 m c n h).2 (ix2 r l)
      = partialRow (Xk m c) (Yk m c) (8 * (n / 128) + r.val) (2048 * (n % 128) + 2048) (BitVec.ofNat 32 l.val) := by
  induction n using Nat.strong_induction_on with
  | _ n ih =>
    intro h r l
    have hN : n < 1024 := lt_of_lt_of_eq h (show cfg0.N = 1024 from N_0)
    by_cases h0 : n % 128 = 0
    · have h1 : ¬ n % 128 = 127 := by omega
      have e2 : (outsAt0 m c n h).2 = k0_pay2 (F := Ideal) (iblk m c 0 ⟨n, h⟩) (iblk m c 1 ⟨n, h⟩) zeros :=
        (congrArg Prod.snd (outsAt0_A m c ⟨n, h⟩ h0 h1)).trans
          (scratch_A (F := Ideal) c (grid0.coords ⟨n, h⟩) (ms0_0 ⟨n, h⟩) (hs0_0 ⟨n, h⟩) (ms0_1 ⟨n, h⟩) (hs0_1 ⟨n, h⟩)
            (ms0_2 ⟨n, h⟩) (hs0_2 ⟨n, h⟩) scM0_0 (Memref.isWhole_whole _) ((hcond0_0 ⟨n, h⟩).mpr h0)
            (fun hh => h1 ((hcond0_1 ⟨n, h⟩).mp hh)) (iblk m c 0 ⟨n, h⟩) (iblk m c 1 ⟨n, h⟩))
      rw [e2]
      refine step m c ⟨n, h⟩ zeros r l ?_
      show k0_pay1 (F := Ideal) (ix2 r l) = _
      rw [pay1_apply, show 2048 * ((⟨n, h⟩ : Fin cfg0.N).val % 128) = 0 from by show 2048 * (n % 128) = 0; omega,
        partialRow_zero]
    · have hpos : n ≠ 0 := by intro hz; apply h0; rw [hz]
      have ihp := ih (n - 1) (by omega) (Nat.lt_of_le_of_lt (Nat.sub_le _ _) h) r l
      have e1 : 8 * ((n - 1) / 128) + r.val = 8 * (n / 128) + r.val := by omega
      have e2 : 2048 * ((n - 1) % 128) + 2048 = 2048 * (n % 128) := by omega
      rw [e1, e2] at ihp
      by_cases h1 : n % 128 = 127
      · have e3 : (outsAt0 m c n h).2 = k0_pay2 (F := Ideal) (iblk m c 0 ⟨n, h⟩) (iblk m c 1 ⟨n, h⟩)
            (outsAt0 m c (n - 1) (Nat.lt_of_le_of_lt (Nat.sub_le _ _) h)).2 :=
          (congrArg Prod.snd (outsAt0_C m c ⟨n, h⟩ h0 h1)).trans
            (scratch_C (F := Ideal) c (grid0.coords ⟨n, h⟩) (ms0_0 ⟨n, h⟩) (hs0_0 ⟨n, h⟩) (ms0_1 ⟨n, h⟩) (hs0_1 ⟨n, h⟩)
              (ms0_2 ⟨n, h⟩) (hs0_2 ⟨n, h⟩) scM0_0 (Memref.isWhole_whole _) (fun hh => h0 ((hcond0_0 ⟨n, h⟩).mp hh))
              ((hcond0_1 ⟨n, h⟩).mpr h1) (iblk m c 0 ⟨n, h⟩) (iblk m c 1 ⟨n, h⟩)
              (outsAt0 m c (n - 1) (Nat.lt_of_le_of_lt (Nat.sub_le _ _) h)).2)
        rw [e3]
        exact step m c ⟨n, h⟩ _ r l ihp
      · have e3 : (outsAt0 m c n h).2 = k0_pay2 (F := Ideal) (iblk m c 0 ⟨n, h⟩) (iblk m c 1 ⟨n, h⟩)
            (outsAt0 m c (n - 1) (Nat.lt_of_le_of_lt (Nat.sub_le _ _) h)).2 :=
          (congrArg Prod.snd (outsAt0_B m c ⟨n, h⟩ h0 h1)).trans
            (scratch_B (F := Ideal) c (grid0.coords ⟨n, h⟩) (ms0_0 ⟨n, h⟩) (hs0_0 ⟨n, h⟩) (ms0_1 ⟨n, h⟩) (hs0_1 ⟨n, h⟩)
              (ms0_2 ⟨n, h⟩) (hs0_2 ⟨n, h⟩) scM0_0 (Memref.isWhole_whole _) (fun hh => h0 ((hcond0_0 ⟨n, h⟩).mp hh))
              (fun hh => h1 ((hcond0_1 ⟨n, h⟩).mp hh)) (iblk m c 0 ⟨n, h⟩) (iblk m c 1 ⟨n, h⟩)
              (outsAt0 m c (n - 1) (Nat.lt_of_le_of_lt (Nat.sub_le _ _) h)).2)
        rw [e3]
        exact step m c ⟨n, h⟩ _ r l ihp

/-- THE OUTPUT BLOCK of the last point of a grid row: rows 8·(t / 128) … + 7 of the histogram. -/
theorem out_eq (c : Dev nD) (t : Fin cfg0.N) (h1 : t.val % 128 = 127) (y : S8x64.Idx)
    (hrow : 8 * (t.val / 128) + (y 0).val < 64) :
    (outsAt0 m c t.val t.isLt).1 y
      = rowHist (Xk m c) (Yk m c) (ix2 (⟨8 * (t.val / 128) + (y 0).val, hrow⟩ : Fin 64) (y 1)) := by
  have h0 : ¬ t.val % 128 = 0 := by omega
  have e := outsAt0_C m c t h0 h1
  have ea : (outsAt0 m c t.val t.isLt).1 = fun y : S8x64.Idx => k0_pay2 (F := Ideal) (iblk m c 0 t) (iblk m c 1 t)
        (outsAt0 m c (t.val - 1) (Nat.lt_of_le_of_lt (Nat.sub_le _ _) t.isLt)).2 (ix2 (y 0) (lane (y 1))) :=
    (congrArg Prod.fst e).trans
      (out_C (F := Ideal) c (grid0.coords t) (ms0_0 t) (hs0_0 t) (ms0_1 t) (hs0_1 t) (ms0_2 t) (hs0_2 t) scM0_0
        (Memref.isWhole_whole _) (fun hh => h0 ((hcond0_0 t).mp hh)) ((hcond0_1 t).mpr h1) (iblk m c 0 t) (iblk m c 1 t)
        (outsAt0 m c (t.val - 1) (Nat.lt_of_le_of_lt (Nat.sub_le _ _) t.isLt)).2)
  have eb : (outsAt0 m c t.val t.isLt).2 = k0_pay2 (F := Ideal) (iblk m c 0 t) (iblk m c 1 t)
        (outsAt0 m c (t.val - 1) (Nat.lt_of_le_of_lt (Nat.sub_le _ _) t.isLt)).2 :=
    (congrArg Prod.snd e).trans
      (scratch_C (F := Ideal) c (grid0.coords t) (ms0_0 t) (hs0_0 t) (ms0_1 t) (hs0_1 t) (ms0_2 t) (hs0_2 t) scM0_0
        (Memref.isWhole_whole _) (fun hh => h0 ((hcond0_0 t).mp hh)) ((hcond0_1 t).mpr h1) (iblk m c 0 t) (iblk m c 1 t)
        (outsAt0 m c (t.val - 1) (Nat.lt_of_le_of_lt (Nat.sub_le _ _) t.isLt)).2)
  rw [ea]
  show k0_pay2 (F := Ideal) _ _ _ (ix2 (y 0) (lane (y 1))) = _
  rw [← eb, scratch_eq m c t.val t.isLt (y 0) (lane (y 1)),
    show 2048 * (t.val % 128) + 2048 = 262144 from by omega]
  exact partialRow_full (Xk m c) (Yk m c) ⟨8 * (t.val / 128) + (y 0).val, hrow⟩ (y 1)

end Cert.KernelIdeal.Accum

end
-- ==== Proof.KernelFinal.lean ====
/-
  The kernel's output array. The last point of each row of the grid writes its 8 × 64 block of counts back as rows
  8·i … 8·i + 7 of the output; the eight writing points cover the 64 rows, so the array ends holding the histogram.
-/
import proofs.«172586_j48954037239853_2_alg».proof.Proof.KernelAccum

set_option maxRecDepth 16384

noncomputable section

namespace Cert.KernelIdeal.Accum

open Idealize.ShloMosaic Idealize.ShloMosaic.TcCoe Idealize.SL.Sem
open Idealize.ShloMosaic.Pipeline (Dat)
open Cert.KernelIdeal Cert.KernelIdeal.Gen Idealize.ShloMosaic.ValueIdx Cert.Hist
open Cert.KernelIdeal.Pieces Cert.KernelIdeal.Payload

variable (m : (ℓ : Loc nD τ sig) → Buf (Elt Ideal) ℓ) (ρ : Dev nD → PrngReg)

/-- Row `r` of the block of the point at position `t` is array row 8·(t / 128) + r. -/
theorem row_lt (t : Fin cfg0.N) (r : Fin 8) : 8 * (t.val / 128) + r.val < 64 := by
  have hN : t.val < 1024 := lt_of_lt_of_eq t.isLt (show cfg0.N = 1024 from N_0)
  have := r.isLt
  omega

/-- The output block of the last point of a grid row, as a function of the block's index. -/
theorem out_fun_eq (c : Dev nD) (t : Fin cfg0.N) (h1 : t.val % 128 = 127) :
    (outsAt0 m c t.val t.isLt).1
      = fun y : S8x64.Idx => rowHist (Xk m c) (Yk m c) (ix2 (⟨8 * (t.val / 128) + (y 0).val, row_lt t (y 0)⟩ : Fin 64) (y 1)) :=
  funext fun y => out_eq m c t h1 y (row_lt t (y 0))

/-- WHAT A WRITING POINT WRITES BACK is its block of the histogram. -/
theorem flushed_eq (c : Dev nD) (t : Fin cfg0.N) (hf : (cfg0.win 2).flush t = true) :
    (dats m 0 c).flushed 2 t = ((cfg0.win 2).blk t).view.read (Elt Ideal) (rowHist (Xk m c) (Yk m c)) := by
  have h1 := (flush0_2 t).mp hf
  obtain ⟨-, -, -, -, e4, e5⟩ := idx_facts t
  show (cfg0.win 2).cut (grid0.coords t) ((dats m 0 c).after 2 t) = _
  rw [after0_2, out_fun_eq m c t h1]
  generalize rowHist (Xk m c) (Yk m c) = G
  funext y
  rw [View.read_apply]
  refine eq_of_heq (HEq.trans ?_ (cast_heq _ _).symm)
  refine heq_of_eq (congrArg G ?_)
  funext a
  apply Fin.ext
  match a with
  | ⟨0, _⟩ => show 8 * (t.val / 128) + (y 0).val = win0_2.index t 0 * 8 + 1 * (y 0).val; rw [e4]; omega
  | ⟨1, _⟩ => show (y 1).val = win0_2.index t 1 * 64 + 1 * (y 1).val; rw [e5]; omega

/-- An index of the output array is in point `t`'s block iff each coordinate is in the block's range on its axis. -/
theorem mem_blk (t : Fin cfg0.N) (i : S64x64.Idx) :
    i ∈ ((cfg0.win 2).blk t).view.set
      ↔ ∀ a : Fin 2, win0_2.index t a * S8x64.size a ≤ (i a).val ∧ (i a).val < win0_2.index t a * S8x64.size a + S8x64.size a := by
  show i ∈ ((View.whole main_v2).slice (win0_2.rect t)).set ↔ _
  rw [View.set_slice_whole, Rect.mem_set_unit]
  exact Iff.rfl

/-- THE OUTPUT ARRAY after the run is the histogram: row b is written by the last point of grid row b / 8. -/
theorem final (c : Dev nD) : (dats m 0 c).arrAt 2 cfg0.N = rowHist (Xk m c) (Yk m c) :=
  (dats m 0 c).arrAt_eq_of_cover 2 (rowHist (Xk m c) (Yk m c)) (flushed_eq m c) fun i => by
    have hi0 : (i 0).val < 64 := (i 0).isLt
    have hi1 : (i 1).val < 64 := (i 1).isLt
    have hlt : 128 * ((i 0).val / 8) + 127 < cfg0.N := by rw [show cfg0.N = 1024 from N_0]; omega
    refine ⟨⟨128 * ((i 0).val / 8) + 127, hlt⟩, (flush0_2 _).mpr (by show (128 * ((i 0).val / 8) + 127) % 128 = 127; omega), ?_⟩
    obtain ⟨-, -, -, -, e4, e5⟩ := idx_facts ⟨128 * ((i 0).val / 8) + 127, hlt⟩
    rw [mem_blk]
    intro a
    match a with
    | ⟨0, _⟩ =>
      show win0_2.index ⟨128 * ((i 0).val / 8) + 127, hlt⟩ 0 * 8 ≤ (i 0).val
        ∧ (i 0).val < win0_2.index ⟨128 * ((i 0).val / 8) + 127, hlt⟩ 0 * 8 + 8
      rw [e4]; show (128 * ((i 0).val / 8) + 127) / 128 * 8 ≤ (i 0).val ∧ (i 0).val < (128 * ((i 0).val / 8) + 127) / 128 * 8 + 8
      omega
    | ⟨1, _⟩ =>
      show win0_2.index ⟨128 * ((i 0).val / 8) + 127, hlt⟩ 1 * 64 ≤ (i 1).val
        ∧ (i 1).val < win0_2.index ⟨128 * ((i 0).val / 8) + 127, hlt⟩ 1 * 64 + 64
      rw [e5]; omega

end Cert.KernelIdeal.Accum

end
-- ==== Proof.HistTail.lean ====
/-
  From a histogram to the number both programs return. Each row of the histogram is divided by its sum and 1e-8 (the
  single-precision literal) is added: the joint probabilities p. The marginal of a row is the sum s of its p. The
  result is minus the mean over the 64 rows of the row sums of p · log (p / (s · s)). The two programs perform this
  computation by the same operations on the same literals, so it is stated once, as a function of the histogram.
-/
import Idealize.ShloMosaic.PureOps
import Idealize.ShloMosaic.PureOps.Ideal

noncomputable section

namespace Cert.Hist

open Idealize.ShloMosaic

abbrev H64x64 : Shape := ⟨2, ![64, 64]⟩
abbrev H64x1 : Shape := ⟨2, ![64, 1]⟩
abbrev H64 : Shape := ⟨1, ![64]⟩
abbrev H0 : Shape := ⟨0, ![]⟩

/-- The zero every sum starts from. -/
abbrev zero0 : FVec Ideal H0 .f32 := constant (F := Ideal) H0 .f32 0x00000000#32

/-- The sum of each row, as a column. -/
def rowSums (p : FVec Ideal H64x64 .f32) : FVec Ideal H64x1 .f32 :=
  broadcastInDim H64x1 (![0] : Fin 1 → Fin H64x1.rank) (by decide)
    (Host.reduceAdd (F := Ideal) (axes := [(1 : Fin 2)]) (t := H64) p zero0 (by decide) (by decide))

/-- A column repeated along the rows. -/
def spread (v : FVec Ideal H64x1 .f32) : FVec Ideal H64x64 .f32 :=
  broadcastInDim H64x64 (![0, 1] : Fin 2 → Fin H64x64.rank) (by decide) v

/-- The joint probabilities: each row over its sum, plus 1e-8. -/
def joint (h : FVec Ideal H64x64 .f32) : FVec Ideal H64x64 .f32 :=
  addf (Host.divf (F := Ideal) h (spread (rowSums h)))
    (broadcastInDim H64x64 (![] : Fin 0 → Fin H64x64.rank) (by decide) (constant (F := Ideal) H0 .f32 0x322BCC77#32))

/-- The number returned for a histogram. -/
def tail (h : FVec Ideal H64x64 .f32) : FVec Ideal H0 .f32 :=
  Host.negf (F := Ideal) (Host.divf (F := Ideal)
    (Host.reduceAdd (F := Ideal) (axes := [(0 : Fin 1)]) (t := H0)
      (Host.reduceAdd (F := Ideal) (axes := [(1 : Fin 2)]) (t := H64)
        (mulf (joint h) (Host.log (F := Ideal) (Host.divf (F := Ideal) (joint h)
          (spread (mulf (rowSums (joint h)) (rowSums (joint h)))))))
        zero0 (by decide) (by decide))
      zero0 (by decide) (by decide))
    (constant (F := Ideal) H0 .f32 0x42800000#32))

end Cert.Hist

end
-- ==== Proof.KernelRun.lean ====
/-
  The kernel's result. Before the grid runs, the two arguments are laid out as 64 rows of 262144 samples; after it, the
  output array holds the histogram of those rows, and the program's remaining operations are the tail computation.
-/
import proofs.«172586_j48954037239853_2_alg».proof.Proof.KernelFinal
import proofs.«172586_j48954037239853_2_alg».proof.Proof.HistTail
import Idealize.ShloMosaic.Lib.StableHlo.Run

set_option maxRecDepth 16384

noncomputable section

namespace Cert.KernelIdeal.Accum

open Idealize.ShloMosaic Idealize.ShloMosaic.TcCoe Idealize.SL.Sem
open Idealize.ShloMosaic.Pipeline (Dat)
open Cert.KernelIdeal Cert.KernelIdeal.Gen Idealize.ShloMosaic.ValueIdx Cert.Hist

variable (m : (ℓ : Loc nD τ sig) → Buf (Elt Ideal) ℓ) (ρ : Dev nD → PrngReg)

/-- The first array of samples, as the grid finds it, is the first argument laid out as 64 rows. -/
theorem Xk_eq (c : Dev nD) :
    Xk m c = shapeCast S64x262144 (m ((c.tc : Thread nD τ).loc main_arg0)) Facts₀.shapeCasts_S64x1x512x512_S64x262144 := by
  show StableHlo.after hostOps0 (fun b => m (c, b)) (Proc.devRef .tc main_v0) = _
  after_results
  rfl

/-- The second likewise. -/
theorem Yk_eq (c : Dev nD) :
    Yk m c = shapeCast S64x262144 (m ((c.tc : Thread nD τ).loc main_arg1)) Facts₀.shapeCasts_S64x1x512x512_S64x262144 := by
  show StableHlo.after hostOps0 (fun b => m (c, b)) (Proc.devRef .tc main_v1) = _
  after_results
  rfl

/-- After the grid, the program's remaining operations are the tail computation of the output array's histogram. -/
theorem tail_eq (c : Dev nD) :
    Pipeline.afterTail₀ cfgs (dats m) 0 (V0 m) [hostOps1] c main_v19 = tail (rowHist (Xk m c) (Yk m c)) := by
  have hw : Pipeline.withArrays (cfgs 0).spec c (V0 m c) (fun w => (dats m 0 c).arrAt w (cfgs 0).N) (Proc.tc.devRef main_v2)
      = rowHist (Xk m c) (Yk m c) :=
    (Pipeline.withArrays_arr spec0 launch0.win.arr_inj c _ _ 2).trans (final m c)
  unfold Pipeline.afterTail₀
  show StableHlo.after hostOps1 _ (Proc.devRef .tc main_v19) = _
  after_results
  rw [hw]
  generalize rowHist (Xk m c) (Yk m c) = G
  rfl

/-- The kernel's result on core `c`: the tail computation of the histogram of the two arrays. -/
abbrev result (c : Dev nD) : Buf (Elt Ideal) ((c.tc : Thread nD τ).loc main_v19) := tail (rowHist (Xk m c) (Yk m c))

/-- THE KERNEL'S RUN, read: every weakly fair execution ends with the result at that number and the arguments unchanged. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v19 (Pipeline.mem_restRefs_of main_v19 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- The result in terms of the arguments. -/
theorem result_eq (c : Dev nD) :
    result m c = tail (rowHist
      (shapeCast S64x262144 (m ((c.tc : Thread nD τ).loc main_arg0)) Facts₀.shapeCasts_S64x1x512x512_S64x262144)
      (shapeCast S64x262144 (m ((c.tc : Thread nD τ).loc main_arg1)) Facts₀.shapeCasts_S64x1x512x512_S64x262144)) := by
  show tail (rowHist (Xk m c) (Yk m c)) = _
  rw [Xk_eq, Yk_eq]

end Cert.KernelIdeal.Accum

end
-- ==== Proof.LibScatterAddCol.lean ====
/-
  The host's accumulating scatter of a column of positions into a vector, read at an index: the entry already there
  plus the sum, over all updates, of the update where its position (read as a signed integer) is that index and
  zero where it is not. An update whose position falls outside the vector is added nowhere.
-/
import Idealize.ShloMosaic.Lib.ValueIdx
import Idealize.ShloMosaic.PureOps.Ideal.Laws

namespace Cert.ScatterAddCol

open Idealize.ShloMosaic Idealize.ShloMosaic.ValueIdx

/-- A sum over the indices of a vector shape is the sum over its one coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  Fintype.sum_equiv ⟨fun j => j 0, fun a => ix1 a, fun j => (eq_ix1 j).symm, fun _ => rfl⟩ _ _
    (fun j => congrArg f (eq_ix1 j))

variable {n m w : ℕ}

/-- With one position per update (a column `[n, 1]`), no window axes, and the vector's one axis the scattered one,
    update `j` lands at index `i` exactly when its position, read signed, is `i`. -/
theorem resultIdx?_eq_some_iff (wf : ScatterDims.WF (⟨1, ![m]⟩ : Shape) (⟨2, ![n, 1]⟩ : Shape) (⟨1, ![n]⟩ : Shape) [] [0] [0] 1)
    (idx : IVec (⟨2, ![n, 1]⟩ : Shape) w) (j : Fin n) (i : Fin m) :
    (ScatterDims.mk (s := (⟨1, ![m]⟩ : Shape)) (si := (⟨2, ![n, 1]⟩ : Shape)) (u := (⟨1, ![n]⟩ : Shape)) [] [0] [0] 1 wf).resultIdx?
        (ix1 j) idx = some (ix1 i)
      ↔ (idx (ix2 j (0 : Fin 1))).toInt = (i.val : ℤ) := by
  set d : ScatterDims (⟨1, ![m]⟩ : Shape) (⟨2, ![n, 1]⟩ : Shape) (⟨1, ![n]⟩ : Shape) := ScatterDims.mk [] [0] [0] 1 wf with hd
  have hstart : ∀ a, d.start (ix1 j) idx a = (idx (ix2 j (0 : Fin 1))).toInt := by
    intro a
    have ha : a = (0 : Fin 1) := Subsingleton.elim _ _
    subst ha
    unfold ScatterDims.start
    rw [dif_pos (by simp [hd])]
    congr 2
    funext b
    apply Fin.ext
    match b with
    | ⟨0, _⟩ => rfl
    | ⟨1, _⟩ => rfl
  have hwin : ∀ a, d.window (ix1 j) a = 0 := by
    intro a
    have ha : a = (0 : Fin 1) := Subsingleton.elim _ _
    subst ha
    unfold ScatterDims.window
    rw [dif_neg (by simp [hd, ScatterDims.sKept, Shape.kept])]
  unfold ScatterDims.resultIdx?
  constructor
  · intro h
    split at h
    · rename_i hc
      have h0 := congrFun (Option.some.inj h) (0 : Fin 1)
      have hv := congrArg Fin.val h0
      simp only [hstart, hwin] at hv hc
      have := (hc 0).1
      simp only [Nat.cast_zero, add_zero] at hv this
      show (idx (ix2 j 0)).toInt = (i.val : ℤ)
      have hv' : ((idx (ix2 j 0)).toInt).toNat = i.val := hv
      omega
    · exact absurd h (by simp)
  · intro h
    have hc : ∀ a, 0 ≤ d.start (ix1 j) idx a + (d.window (ix1 j) a : ℤ) ∧
        d.start (ix1 j) idx a + (d.window (ix1 j) a : ℤ) < ((⟨1, ![m]⟩ : Shape).size a : ℤ) := by
      intro a
      have ha : a = (0 : Fin 1) := Subsingleton.elim _ _
      subst ha
      rw [hstart, hwin, h]
      have := i.isLt
      constructor
      · simp
      · show (i.val : ℤ) + ((0 : ℕ) : ℤ) < (m : ℤ); omega
    rw [dif_pos hc]
    congr 1
    funext a
    have ha : a = (0 : Fin 1) := Subsingleton.elim _ _
    subst ha
    apply Fin.ext
    show (d.start (ix1 j) idx 0 + (d.window (ix1 j) 0 : ℤ)).toNat = i.val
    rw [hstart, hwin, h]; simp

/-- The accumulating scatter at an index: what was there plus every update positioned there. -/
theorem hostScatterAdd_apply (wf : ScatterDims.WF (⟨1, ![m]⟩ : Shape) (⟨2, ![n, 1]⟩ : Shape) (⟨1, ![n]⟩ : Shape) [] [0] [0] 1)
    (x : (⟨1, ![m]⟩ : Shape).Idx → EReal) (idx : IVec (⟨2, ![n, 1]⟩ : Shape) w) (upd : (⟨1, ![n]⟩ : Shape).Idx → EReal) (i : Fin m) :
    Ideal.hostScatterAdd (ScatterDims.mk (s := (⟨1, ![m]⟩ : Shape)) (si := (⟨2, ![n, 1]⟩ : Shape)) (u := (⟨1, ![n]⟩ : Shape)) [] [0] [0] 1 wf)
        x idx upd (ix1 i)
      = x (ix1 i) + ∑ j : Fin n, if (idx (ix2 j (0 : Fin 1))).toInt = (i.val : ℤ) then upd (ix1 j) else 0 := by
  unfold Ideal.hostScatterAdd
  rw [Finset.sum_filter, sum_idx1]
  congr 1
  refine Finset.sum_congr rfl fun j _ => ?_
  simp only [resultIdx?_eq_some_iff wf idx j i]

end Cert.ScatterAddCol
-- ==== Proof.RefHist.lean ====
/-
  The reference's histogram. The reference gives every sample the weight one (counted) or zero, and the position
  64·b + bin in a table of 4096 zeros, b the sample's row; the accumulating scatter adds each weight at its position, and the
  table is cut into 64 rows of 64. Entry (b, k) of the result is therefore the sum of the weights of the samples
  positioned at 64·b + k — those of row b whose bin is k — which is the histogram's entry.
-/
import proofs.«172586_j48954037239853_2_alg».proof.Proof.Gen.ReferenceIdeal.Read
import proofs.«172586_j48954037239853_2_alg».proof.Proof.HistSpec
import proofs.«172586_j48954037239853_2_alg».proof.Proof.LibScatterAddCol

noncomputable section

namespace Cert.ReferenceIdeal.RefHist

open Cert.ReferenceIdeal Cert.ReferenceIdeal.Gen Cert.ReferenceIdeal.Read Idealize.ShloMosaic Idealize.ShloMosaic.ValueIdx Cert.Hist

variable (a0 a1 : (⟨S64x1x512x512, .f32⟩ : BufTy).Contents (Elt Ideal))

/-- The two argument arrays as 64 rows of 262144 samples. -/
abbrev X : S64x262144.Idx → EReal := val_main_v0 (F := Ideal) a0
abbrev Y : S64x262144.Idx → EReal := val_main_v1 (F := Ideal) a1

/-- The score the reference computes for a sample. -/
theorem v4_apply (i : S64x262144.Idx) : val_main_v4 (F := Ideal) a0 a1 i = score (X a0 i) (Y a1 i) := by
  rw [val_main_v4_apply, val_main_v3_apply, val_main_v2_apply, val_main_cst_apply]
  rfl

/-- Its weight. -/
theorem v20_apply (i : S64x262144.Idx) : val_main_v20 (F := Ideal) a0 a1 i = weight (score (X a0 i) (Y a1 i)) := by
  rw [val_main_v20_apply, val_main_v9_apply, val_main_v6_apply, val_main_v8_apply, val_main_v5_apply, val_main_v7_apply,
    val_main_cst_0_apply, val_main_cst_1_apply, val_main_call1_v0_apply, val_main_call1_v1_apply, val_main_cst_4_apply,
    val_main_cst_5_apply, v4_apply]
  rfl

/-- Its position. -/
theorem v18_apply (i : S64x262144.Idx) :
    val_main_v18 (F := Ideal) a0 a1 i = slot (score (X a0 i) (Y a1 i)) (BitVec.ofNat 32 (i 0).val) := by
  rw [val_main_v18_apply, val_main_v12_apply, val_main_call0_v4_apply, val_main_call0_v3_apply, val_main_c_2_apply,
    val_main_call0_v2_apply, val_main_call0_v1_apply, val_main_call0_v0_apply, val_main_c_apply, val_main_v11_apply,
    val_main_v10_apply, v4_apply, val_main_v17_apply, val_main_v16_apply, val_main_v15_apply, val_main_c_3_apply,
    val_main_v14_apply, val_main_v13_apply]
  rfl

/-- Sample `j` of the flattened arrays is sample `j mod 262144` of row `j / 262144`. -/
abbrev unflat (j : Fin 16777216) : S64x262144.Idx :=
  ix2 (⟨j.val / 262144, by have := j.isLt; omega⟩ : Fin 64) (⟨j.val % 262144, by omega⟩ : Fin 262144)

/-- The table's entry at position `p`: the sum over all samples of the weight of those positioned at `p`. -/
theorem v25_apply (p : Fin 4096) :
    val_main_v25 (F := Ideal) a0 a1 (ix1 p)
      = ∑ j : Fin 16777216,
          if (slot (score (X a0 (unflat j)) (Y a1 (unflat j))) (BitVec.ofNat 32 ((unflat j) 0).val)).toInt = (p.val : ℤ)
          then weight (score (X a0 (unflat j)) (Y a1 (unflat j))) else 0 := by
  have e25 : val_main_v25 (F := Ideal) a0 a1
      = Ideal.hostScatterAdd (ScatterDims.mk [] [0] [0] 1 Facts₀.scatter_S4096_S16777216x1_S16777216_n_0_0_1_wf)
        (val_main_v23 (F := Ideal)) (val_main_v24 (F := Ideal) a0 a1) (val_main_v22 (F := Ideal) a0 a1) := rfl
  rw [e25, Cert.ScatterAddCol.hostScatterAdd_apply, val_main_v23_apply, val_main_cst_6_apply]
  have ez : (FloatOps.ofBits (F := Ideal) .f32 0x00000000#32 : EReal) = 0 := Ideal.ofBits_zero_f32
  rw [ez, zero_add]
  refine Finset.sum_congr rfl fun j _ => ?_
  have e24 : idx_main_v24 (ix2 j (0 : Fin 1)) = ix1 j := by
    funext a; match a with | ⟨0, _⟩ => rfl
  have e19 : idx_main_v19 (ix1 j) = unflat j := by
    funext a; match a with | ⟨0, _⟩ => rfl | ⟨1, _⟩ => rfl
  have e21 : idx_main_v21 (ix1 j) = unflat j := by
    funext a; match a with | ⟨0, _⟩ => rfl | ⟨1, _⟩ => rfl
  rw [val_main_v24_apply, e24, val_main_v19_apply, e19, v18_apply, val_main_v22_apply, val_main_v21_apply, e21, v20_apply]

/-- A sum over the flattened samples is the sum over rows of the sums over each row's samples. -/
theorem sum_unflat {M : Type*} [AddCommMonoid M] (g : Fin 64 → Fin 262144 → M) :
    ∑ j : Fin 16777216, g ⟨j.val / 262144, by have := j.isLt; omega⟩ ⟨j.val % 262144, by omega⟩
      = ∑ b : Fin 64, ∑ n : Fin 262144, g b n := by
  rw [← Fintype.sum_prod_type (f := fun p : Fin 64 × Fin 262144 => g p.1 p.2)]
  refine (Fintype.sum_equiv (finProdFinEquiv : Fin 64 × Fin 262144 ≃ Fin 16777216) _ _ fun p => ?_).symm
  have h1 := p.1.isLt
  have h2 := p.2.isLt
  have hv : (finProdFinEquiv p : Fin 16777216).val = p.2.val + 262144 * p.1.val := rfl
  congr 1
  · apply Fin.ext; show p.1.val = (finProdFinEquiv p : Fin 16777216).val / 262144; rw [hv]; omega
  · apply Fin.ext; show p.2.val = (finProdFinEquiv p : Fin 16777216).val % 262144; rw [hv]; omega

/-- THE REFERENCE'S TABLE, cut into rows, is the histogram of the two arrays. -/
theorem v26_eq : val_main_v26 (F := Ideal) a0 a1 = rowHist (X a0) (Y a1) := by
  funext i
  obtain ⟨b, k, rfl⟩ : ∃ (b : Fin 64) (k : Fin 64), i = ix2 b k := ⟨i 0, i 1, eq_ix2 i⟩
  have hb := b.isLt
  have hk := k.isLt
  rw [val_main_v26_apply]
  have hp : idx_main_v26 (ix2 b k) = ix1 (⟨b.val * 64 + k.val, by omega⟩ : Fin 4096) := by
    funext a; match a with | ⟨0, _⟩ => rfl
  rw [hp, v25_apply]
  have hs := sum_unflat (fun (b' : Fin 64) (n : Fin 262144) =>
    if (slot (score (X a0 (ix2 b' n)) (Y a1 (ix2 b' n))) (BitVec.ofNat 32 b'.val)).toInt = ((b.val * 64 + k.val : ℕ) : ℤ)
    then weight (score (X a0 (ix2 b' n)) (Y a1 (ix2 b' n))) else 0)
  refine hs.trans ?_
  rw [Finset.sum_eq_single b]
  · show _ = ∑ n : Fin 262144, _
    refine Finset.sum_congr rfl fun n _ => ?_
    rw [landed_eq _ b.val b.val k.val hb hb hk, if_pos rfl]
  · intro b' _ hne
    refine Finset.sum_eq_zero fun n _ => ?_
    rw [landed_eq _ b'.val b.val k.val b'.isLt hb hk, if_neg (fun h => hne (Fin.ext h))]
  · intro h; exact absurd (Finset.mem_univ b) h

end Cert.ReferenceIdeal.RefHist

end
-- ==== Proof.RefResult.lean ====
/-
  The reference's result, as a function of its histogram: after the table of counts has been cut into rows, the reference's
  remaining operations are the tail computation, and the table is the histogram of the two argument arrays laid out
  as 64 rows of 262144 samples.
-/
import proofs.«172586_j48954037239853_2_alg».proof.Proof.RefHist
import proofs.«172586_j48954037239853_2_alg».proof.Proof.HistTail

noncomputable section

namespace Cert.ReferenceIdeal.RefHist

open Cert.ReferenceIdeal Cert.ReferenceIdeal.Gen Cert.ReferenceIdeal.Read Idealize.ShloMosaic Idealize.ShloMosaic.ValueIdx Cert.Hist

/-- The operations after the table are the tail computation. -/
theorem v43_eq_tail (a0 a1 : (⟨S64x1x512x512, .f32⟩ : BufTy).Contents (Elt Ideal)) :
    val_main_v43 (F := Ideal) a0 a1 = tail (val_main_v26 (F := Ideal) a0 a1) := rfl

/-- THE REFERENCE'S RESULT: the tail computation of the histogram of the two arrays. -/
theorem result_eq (a0 a1 : (⟨S64x1x512x512, .f32⟩ : BufTy).Contents (Elt Ideal)) :
    val_main_v43 (F := Ideal) a0 a1
      = tail (rowHist (shapeCast S64x262144 a0 Facts₀.shapeCasts_S64x1x512x512_S64x262144)
          (shapeCast S64x262144 a1 Facts₀.shapeCasts_S64x1x512x512_S64x262144)) := by
  rw [v43_eq_tail, v26_eq]
  rfl

end Cert.ReferenceIdeal.RefHist

end
-- ==== Proof.lean ====
/-
  The kernel and the reference compute the same number from two arrays of 64 × 262144 samples: a histogram with 64
  bins per row, followed by a mutual-information formula on the histogram.

  A sample (x, y) has the score v = 64·x + y; it is counted when 0 ≤ v ≤ 64, in the bin ⌊v⌋ clipped to [0, 63].
  The kernel walks each group of eight rows in 128 steps of 2048 samples, comparing every sample's bin (−1 when not
  counted) with all bin numbers and adding the resulting ones and zeros into a running block that it writes out
  after the last step. The reference adds each sample's weight (one when counted, zero otherwise) at position
  64·row + bin of a table of zeros. Over the extended reals both are, entry by entry, the number of counted samples of
  the row in the bin: the kernel's sum of ones and zeros over a row is split into consecutive blocks of 2048, and the
  reference's sum over all samples keeps only the samples of the row and bin asked for, because 64·row' + bin =
  64·row + k with both bins below 64 forces row' = row and bin = k. No distributive law is used, only the order of a finite
  sum, so the inputs' finiteness is never needed. The formula after the histogram is the same sequence of
  operations on the same literals in both programs.

  The three frames are the generated ones (the reference's is its generated run with the result dropped), and the
  idealization rewrote nothing.
-/
import proofs.«172586_j48954037239853_2_alg».proof.Defs
import proofs.«172586_j48954037239853_2_alg».proof.Proof.Gen.Kernel
import proofs.«172586_j48954037239853_2_alg».proof.Proof.Gen.Kernel.Frame
import proofs.«172586_j48954037239853_2_alg».proof.Proof.Gen.KernelIdeal
import proofs.«172586_j48954037239853_2_alg».proof.Proof.Gen.KernelIdeal.Frame
import proofs.«172586_j48954037239853_2_alg».proof.Proof.Gen.ReferenceIdeal
import proofs.«172586_j48954037239853_2_alg».proof.Proof.Gen.ReferenceIdeal.Run
import proofs.«172586_j48954037239853_2_alg».proof.Proof.Gen.Pre_finite_inputs
import proofs.«172586_j48954037239853_2_alg».proof.Proof.KernelRun
import proofs.«172586_j48954037239853_2_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the tail computation of the histogram of the two arguments laid out as 64 rows of samples. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefHist.result_eq, (hagree c).1, (hagree c).2]
  exact (Cert.KernelIdeal.Accum.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
